-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S512x512 : Shape := ⟨2, ![512, 512]⟩
abbrev S512 : Shape := ⟨1, ![512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S1024x512 .f32) (main_arg1 : FVec F S512x512 .f32) (main_arg2 : FVec F S512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S1024x512 : Shape := ⟨2, ![1024, 512]⟩
abbrev S512x512 : Shape := ⟨2, ![512, 512]⟩
abbrev S512 : Shape := ⟨1, ![512]⟩
abbrev S1x512 : Shape := ⟨2, ![1, 512]⟩
abbrev S_ : Shape := ⟨0, ![]⟩
abbrev S512x1 : Shape := ⟨2, ![512, 1]⟩

abbrev nBuf : Space → Nat
  | .hbm => 9
  | .vmem => 7
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S512, .f32⟩
  | .hbm, ⟨3, _⟩ => ⟨S1x512, .f32⟩
  | .hbm, ⟨4, _⟩ => ⟨S512x512, .f32⟩
  | .hbm, ⟨5, _⟩ => ⟨S_, .f32⟩
  | .hbm, ⟨6, _⟩ => ⟨S512, .f32⟩
  | .hbm, ⟨7, _⟩ => ⟨S1x512, .f32⟩
  | .hbm, ⟨8, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S1x512, .f32⟩
  | .local _ .vmem, ⟨4, _⟩ => ⟨S1x512, .f32⟩
  | .local _ .vmem, ⟨5, _⟩ => ⟨S512x512, .f32⟩
  | .local _ .vmem, ⟨6, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S512_S1x512 : S512.ShapeCasts S1x512
  reducesTo_S512x512_S512_d1 : S512x512.ReducesTo [1] S512
  h_S_ : 0 < S_.numel
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S512x512_S512 : S512x512.Reduces [1] S512
  shapeCasts_S512_S512x1 : S512.ShapeCasts S512x1
  bitsLt_bf16_f32 : FTy.bits .bf16 < FTy.bits .f32
  broadcasts_S512x1_S512x512 : S512x1.Broadcasts S512x512
  broadcasts_S1x512_S512x512 : S1x512.Broadcasts S512x512
  dot_S512x512_S512x512_S512x512_1_1_0_0_n_n_wf : DotDims.WF S512x512 S512x512 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S1024x512.size a
  hwx0_0 : ∀ i : grid0.Coords, EltTy.bits .f32 = 32 ∨ (Rect.block (s := S1024x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S1024x512.size a
  hwx0_4 : ∀ i : grid0.Coords, EltTy.bits .f32 = 32 ∨ (Rect.block (s := S1024x512) S512x512.size (cc0_transform_4 i) (hinb0_4 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x512 : Shape := ⟨2, ![1024, 512]⟩
abbrev S512x512 : Shape := ⟨2, ![512, 512]⟩
abbrev S512 : Shape := ⟨1, ![512]⟩
abbrev S1024x512x1 : Shape := ⟨3, ![1024, 512, 1]⟩
abbrev S1x512x512 : Shape := ⟨3, ![1, 512, 512]⟩
abbrev S1024x512x512 : Shape := ⟨3, ![1024, 512, 512]⟩
abbrev S_ : Shape := ⟨0, ![]⟩
abbrev S1x512 : Shape := ⟨2, ![1, 512]⟩

abbrev nBuf : Space → Nat
  | .hbm => 16
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S512, .f32⟩
  | .hbm, ⟨3, _⟩ => ⟨S1024x512x1, .f32⟩
  | .hbm, ⟨4, _⟩ => ⟨S512x512, .f32⟩
  | .hbm, ⟨5, _⟩ => ⟨S1x512x512, .f32⟩
  | .hbm, ⟨6, _⟩ => ⟨S1024x512x512, .f32⟩
  | .hbm, ⟨7, _⟩ => ⟨S1024x512x512, .f32⟩
  | .hbm, ⟨8, _⟩ => ⟨S1024x512x512, .f32⟩
  | .hbm, ⟨9, _⟩ => ⟨S1024x512x512, .f32⟩
  | .hbm, ⟨10, _⟩ => ⟨S_, .f32⟩
  | .hbm, ⟨11, _⟩ => ⟨S1024x512, .f32⟩
  | .hbm, ⟨12, _⟩ => ⟨S1x512, .f32⟩
  | .hbm, ⟨13, _⟩ => ⟨S1024x512, .f32⟩
  | .hbm, ⟨14, _⟩ => ⟨S1024x512, .f32⟩
  | .hbm, ⟨15, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  bcast_S1024x512_S1024x512x1_0_1 : S1024x512.BroadcastsInDim S1024x512x1 (![0, 1] : Fin 2 → Fin S1024x512x1.rank)
  transposes_S512x512_S512x512_1_0 : S512x512.Transposes [1, 0] S512x512
  bcast_S512x512_S1x512x512_1_2 : S512x512.BroadcastsInDim S1x512x512 (![1, 2] : Fin 2 → Fin S1x512x512.rank)
  bcast_S1024x512x1_S1024x512x512_0_1_2 : S1024x512x1.BroadcastsInDim S1024x512x512 (![0, 1, 2] : Fin 3 → Fin S1024x512x512.rank)
  bcast_S1x512x512_S1024x512x512_0_1_2 : S1x512x512.BroadcastsInDim S1024x512x512 (![0, 1, 2] : Fin 3 → Fin S1024x512x512.rank)
  reducesTo_S1024x512x512_S1024x512_d1 : S1024x512x512.ReducesTo [1] S1024x512
  h_S_ : 0 < S_.numel
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)

variable [Facts₀]

class Facts : Prop extends Facts₀ where

variable [Facts]
-- ==== Proof.LibRealOps.lean ====
/-
  Real numbers inside the extended reals: the facts that carry "every value is a real number" through a program.

  A program read over the extended reals is exact, but its algebra is the reals' only where no infinity occurs:
  distributivity and cancellation fail at an infinite factor. A precondition that every input is finite therefore has
  to be carried through the program: each intermediate is shown to be the coercion of a real, and the law wanted is then
  the reals'. This file has the two element tests a printed precondition is made of (|x| < +infinity says x is a real;
  v >= 0 says what it says), and the closure of the reals under what such programs do to them: a finite sum (this
  Mathlib has no coercion lemma for it), a sum of products (a matrix product's entry) onto a real accumulator, a quotient
  by a non-zero real, a maximum, and a square root of a non-negative real.
-/
import Idealize.ShloMosaic.PureOps.Ideal

noncomputable section

namespace Idealize.ShloMosaic.RealOps

open Idealize.ShloMosaic

/-! ## The element tests of a precondition -/

/-- The f32 pattern of +infinity denotes the top element. -/
theorem ofBits_pos_inf : Ideal.ofBits .f32 0x7F800000#32 = (⊤ : EReal) := by
  simp [Ideal.ofBits, Ideal.ieee]

/-- An extended real is below the top in absolute value exactly when it is a real number. -/
theorem abs_lt_top_iff (x : EReal) : max x (-x) < ⊤ ↔ ∃ r : ℝ, x = (r : EReal) := by
  induction x using EReal.rec with
  | bot => simp
  | coe r =>
    refine ⟨fun _ => ⟨r, rfl⟩, fun _ => ?_⟩
    rw [← EReal.coe_neg, max_lt_iff]
    exact ⟨EReal.coe_lt_top r, EReal.coe_lt_top (-r)⟩
  | top => simp

/-- The finiteness test as a program prints it: the comparison "|x| < +infinity" answers 1 exactly when x is a real. -/
theorem cmp_abs_lt_inf (x : EReal) :
    Ideal.cmp .olt (max x (-x)) (Ideal.ofBits .f32 0x7F800000#32) = 1#1 ↔ ∃ r : ℝ, x = (r : EReal) := by
  rw [ofBits_pos_inf, ← abs_lt_top_iff]
  unfold Ideal.cmp
  by_cases h : max x (-x) < ⊤ <;> simp [h]

/-- The sign test as a program prints it: "v >= 0" answers 1 exactly when 0 <= v. -/
theorem cmp_ge_zero (v : EReal) : Ideal.cmp .oge v 0 = 1#1 ↔ 0 ≤ v := by
  unfold Ideal.cmp
  by_cases h : (0 : EReal) ≤ v <;> simp [h]

/-! ## Closure of the reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals, taken on the extended reals, is the real sum of products. -/
theorem sum_mul_coe {ι : Type*} (s : Finset ι) (a b : ι → ℝ) :
    ∑ k ∈ s, (a k : EReal) * (b k : EReal) = ((∑ k ∈ s, a k * b k : ℝ) : EReal) := by
  rw [coe_sum]
  exact Finset.sum_congr rfl fun k _ => (EReal.coe_mul _ _).symm

/-- The same onto a real accumulator: an entry of a matrix product of real matrices is a real. -/
theorem acc_add_sum_mul_coe {ι : Type*} (s : Finset ι) (acc : ℝ) (a b : ι → ℝ) :
    (acc : EReal) + ∑ k ∈ s, (a k : EReal) * (b k : EReal) = ((acc + ∑ k ∈ s, a k * b k : ℝ) : EReal) := by
  rw [sum_mul_coe, EReal.coe_add]

/-- A quotient of reals by a non-zero real, as a program takes it, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- A maximum of reals is the real maximum. -/
theorem max_coe (a b : ℝ) : max (a : EReal) (b : EReal) = ((max a b : ℝ) : EReal) :=
  (EReal.coe_strictMono.monotone.map_max).symm

/-- The square root of a non-negative real, as a program takes it, is the real square root. -/
theorem sqrt_coe_of_nonneg {r : ℝ} (hr : 0 ≤ r) : Ideal.sqrt (r : EReal) = ((Real.sqrt r : ℝ) : EReal) := by
  show (if r < 0 then (⊥ : EReal) else (Real.sqrt r : EReal)) = _
  rw [if_neg (not_lt.2 hr)]

end Idealize.ShloMosaic.RealOps

end
-- ==== Proof.Spec.lean ====
/-
  The squared distance of a row to a centroid, two ways.

  For a batch row d and a centroid row w, both of length n, and a scale g, the reference takes
      -( (0 + Σ_k (d_k - w_k)·(d_k - w_k)) · g ),
  while the kernel expands the square and takes
      0 - g · ( (Σ_k d_k·d_k + (0 + Σ_k w_k·w_k)) - 2 · Σ_k d_k·w_k ).
  Over the reals these are one number: (d - w)² = d² + w² - 2·d·w term by term, a finite sum splits over + and -, and a
  constant factor moves out of a sum.  On the extended reals the expansion uses distributivity and so holds only where
  no infinity occurs: the law is stated for entries that are real numbers, which is what the finiteness of the inputs gives.

  The two whole arrays are then stated over the literal shapes: the batch is 1024 × 512, the centroids 512 × 512 and the
  scale has length 512; entry (p, q) pairs batch row p with centroid row q.
-/
import Idealize.ShloMosaic.PureOps.Ideal
import Idealize.ShloMosaic.PureOps.Ideal.Laws
import Idealize.ShloMosaic.Lib.ValueIdx
import proofs.«153817_j55843164783482_2_alg».proof.Proof.LibRealOps

noncomputable section

namespace Cert.Centroid

open Idealize.ShloMosaic Idealize.ShloMosaic.ValueIdx

/-- The f32 pattern 0x40000000 is the real number two. -/
theorem ofBits_two : Ideal.ofBits .f32 0x40000000#32 = ((2 : ℝ) : EReal) := by
  simp [Ideal.ofBits, Ideal.ieee, -EReal.coe_mul]; norm_num

/-- The expansion of the square, summed, over the reals. -/
theorem real_law {ι : Type*} (s : Finset ι) (d w : ι → ℝ) (g : ℝ) :
    0 - g * ((∑ k ∈ s, d k * d k + (0 + ∑ k ∈ s, w k * w k)) - 2 * ∑ k ∈ s, d k * w k)
      = -((0 + ∑ k ∈ s, (d k - w k) * (d k - w k)) * g) := by
  have e : ∑ k ∈ s, (d k - w k) * (d k - w k)
      = ∑ k ∈ s, d k * d k + ∑ k ∈ s, w k * w k - 2 * ∑ k ∈ s, d k * w k := by
    rw [Finset.mul_sum, ← Finset.sum_add_distrib, ← Finset.sum_sub_distrib]
    exact Finset.sum_congr rfl fun k _ => by ring
  rw [e]; ring

/-- The same on the extended reals, for entries that are real numbers, with the zero and the two as the programs
    spell them. -/
theorem entry_law {ι : Type*} (s : Finset ι) (d w : ι → EReal) (g : EReal)
    (hd : ∀ k, ∃ r : ℝ, d k = (r : EReal)) (hw : ∀ k, ∃ r : ℝ, w k = (r : EReal)) (hg : ∃ r : ℝ, g = (r : EReal)) :
    Ideal.ofBits .f32 0x00000000#32
        - g * ((∑ k ∈ s, d k * d k + (Ideal.ofBits .f32 0x00000000#32 + ∑ k ∈ s, w k * w k))
                - Ideal.ofBits .f32 0x40000000#32 * ∑ k ∈ s, d k * w k)
      = -((Ideal.ofBits .f32 0x00000000#32 + ∑ k ∈ s, (d k - w k) * (d k - w k)) * g) := by
  choose rd hrd using hd
  choose rw' hrw using hw
  obtain ⟨rg, rfl⟩ := hg
  obtain rfl : d = fun k => (rd k : EReal) := funext hrd
  obtain rfl : w = fun k => (rw' k : EReal) := funext hrw
  rw [Ideal.ofBits_zero_f32, ofBits_two, ← EReal.coe_zero]
  simp only [← EReal.coe_sub, ← EReal.coe_mul, ← RealOps.coe_sum, ← EReal.coe_add, ← EReal.coe_neg]
  exact congrArg _ (real_law s rd rw' rg)

/-! ## The two arrays -/

/-- Entry (p, q) as the reference computes it. -/
def refEntry (D : (⟨2, ![1024, 512]⟩ : Shape).Idx → EReal) (W : (⟨2, ![512, 512]⟩ : Shape).Idx → EReal)
    (g : (⟨1, ![512]⟩ : Shape).Idx → EReal) (p : Fin 1024) (q : Fin 512) : EReal :=
  -((Ideal.ofBits .f32 0x00000000#32
      + ∑ k : Fin 512, (D (ix2 p k) - W (ix2 q k)) * (D (ix2 p k) - W (ix2 q k))) * g (ix1 q))

/-- Entry (p, q) as the kernel computes it. -/
def kerEntry (D : (⟨2, ![1024, 512]⟩ : Shape).Idx → EReal) (W : (⟨2, ![512, 512]⟩ : Shape).Idx → EReal)
    (g : (⟨1, ![512]⟩ : Shape).Idx → EReal) (p : Fin 1024) (q : Fin 512) : EReal :=
  Ideal.ofBits .f32 0x00000000#32
    - g (ix1 q) * ((∑ k : Fin 512, D (ix2 p k) * D (ix2 p k)
                    + (Ideal.ofBits .f32 0x00000000#32 + ∑ k : Fin 512, W (ix2 q k) * W (ix2 q k)))
                   - Ideal.ofBits .f32 0x40000000#32 * ∑ k : Fin 512, D (ix2 p k) * W (ix2 q k))

/-- The reference's whole result. -/
def refOut (D : (⟨2, ![1024, 512]⟩ : Shape).Idx → EReal) (W : (⟨2, ![512, 512]⟩ : Shape).Idx → EReal)
    (g : (⟨1, ![512]⟩ : Shape).Idx → EReal) : (⟨2, ![1024, 512]⟩ : Shape).Idx → EReal :=
  fun i => refEntry D W g ⟨(i 0).val, (i 0).isLt⟩ ⟨(i 1).val, (i 1).isLt⟩

/-- The kernel's whole result. -/
def kerOut (D : (⟨2, ![1024, 512]⟩ : Shape).Idx → EReal) (W : (⟨2, ![512, 512]⟩ : Shape).Idx → EReal)
    (g : (⟨1, ![512]⟩ : Shape).Idx → EReal) : (⟨2, ![1024, 512]⟩ : Shape).Idx → EReal :=
  fun i => kerEntry D W g ⟨(i 0).val, (i 0).isLt⟩ ⟨(i 1).val, (i 1).isLt⟩

theorem refOut_ix2 (D W g) (p : Fin 1024) (q : Fin 512) : refOut D W g (ix2 p q) = refEntry D W g p q := rfl
theorem kerOut_ix2 (D W g) (p : Fin 1024) (q : Fin 512) : kerOut D W g (ix2 p q) = kerEntry D W g p q := rfl

/-- The kernel's array at an index whose coordinates are those of (p, q). -/
theorem kerOut_of_coords (D : (⟨2, ![1024, 512]⟩ : Shape).Idx → EReal) (W : (⟨2, ![512, 512]⟩ : Shape).Idx → EReal)
    (g : (⟨1, ![512]⟩ : Shape).Idx → EReal) (i : (⟨2, ![1024, 512]⟩ : Shape).Idx) (p : Fin 1024) (q : Fin 512)
    (h0 : (i 0).val = p.val) (h1 : (i 1).val = q.val) : kerOut D W g i = kerEntry D W g p q := by
  obtain rfl : (⟨(i 0).val, (i 0).isLt⟩ : Fin 1024) = p := Fin.ext h0
  obtain rfl : (⟨(i 1).val, (i 1).isLt⟩ : Fin 512) = q := Fin.ext h1
  rfl

/-- Where every input entry is a real number the two arrays are one. -/
theorem kerOut_eq_refOut (D : (⟨2, ![1024, 512]⟩ : Shape).Idx → EReal) (W : (⟨2, ![512, 512]⟩ : Shape).Idx → EReal)
    (g : (⟨1, ![512]⟩ : Shape).Idx → EReal)
    (hD : ∀ i, ∃ r : ℝ, D i = (r : EReal)) (hW : ∀ i, ∃ r : ℝ, W i = (r : EReal)) (hg : ∀ i, ∃ r : ℝ, g i = (r : EReal)) :
    kerOut D W g = refOut D W g := by
  funext i
  exact entry_law Finset.univ (fun k : Fin 512 => D (ix2 ⟨(i 0).val, (i 0).isLt⟩ k))
    (fun k : Fin 512 => W (ix2 ⟨(i 1).val, (i 1).isLt⟩ k)) (g (ix1 ⟨(i 1).val, (i 1).isLt⟩))
    (fun k => hD _) (fun k => hW _) (hg _)

end Cert.Centroid

end
-- ==== Proof.RefRead.lean ====
/-
  The reference, read at an index.

  The reference broadcasts the batch to 1024 × 512 × 1 and then across the centroids' axis, transposes the centroids and
  broadcasts them across the batch axis, subtracts, squares, sums over the middle (feature) axis from zero, multiplies
  by the scale broadcast across rows, and negates.  At entry (p, q) every broadcast and the transposition only re-index:
  the summand at feature k is (D(p, k) - W(q, k))², and the scale read is g(q).
-/
import proofs.«153817_j55843164783482_2_alg».proof.Proof.Gen.ReferenceIdeal.Read
import proofs.«153817_j55843164783482_2_alg».proof.Proof.Spec

noncomputable section

namespace Cert.Centroid

open Idealize.ShloMosaic Idealize.ShloMosaic.ValueIdx
open Cert.ReferenceIdeal Cert.ReferenceIdeal.Read

/-- The batch entry the summand at feature `k` of result entry (p, q) reads. -/
theorem idx_batch (p : Fin 1024) (q k : Fin 512) :
    idx_main_v0 (idx_main_v3 (idx_main_v7 (ix2 p q) k)) = ix2 p k :=
  funext fun a => Fin.ext (by match a with | ⟨0, _⟩ => rfl | ⟨1, _⟩ => rfl)

/-- The centroid entry it reads: the transposition swaps the coordinates back. -/
theorem idx_centroid (p : Fin 1024) (q k : Fin 512) :
    idx_main_v1 (idx_main_v2 (idx_main_v4 (idx_main_v7 (ix2 p q) k))) = ix2 q k :=
  funext fun a => Fin.ext (by match a with | ⟨0, _⟩ => rfl | ⟨1, _⟩ => rfl)

/-- The scale entry result entry (p, q) reads. -/
theorem idx_scale (p : Fin 1024) (q : Fin 512) : idx_main_v8 (idx_main_v9 (ix2 p q)) = ix1 q :=
  funext fun a => Fin.ext (by match a with | ⟨0, _⟩ => rfl)

/-- The reference's result is `refOut` of its arguments. -/
theorem reference_eq (D : (⟨S1024x512, .f32⟩ : BufTy).Contents (Elt Ideal)) (W : (⟨S512x512, .f32⟩ : BufTy).Contents (Elt Ideal))
    (g : (⟨S512, .f32⟩ : BufTy).Contents (Elt Ideal)) :
    val_main_v11 (F := Ideal) D W g = refOut D W g := by
  funext i
  obtain ⟨p, q, rfl⟩ : ∃ (p : Fin 1024) (q : Fin 512), i = ix2 p q := ⟨i 0, i 1, eq_ix2 i⟩
  rw [refOut_ix2]
  unfold refEntry
  rw [val_main_v11_apply, val_main_v10_apply, val_main_v7_apply, val_main_v9_apply, val_main_v8_apply]
  simp only [val_main_v6_apply, val_main_v5_apply, val_main_v3_apply, val_main_v0_apply, val_main_v4_apply,
    val_main_v2_apply, val_main_v1_apply, idx_batch, idx_centroid, idx_scale, val_main_cst_apply,
    Ideal.hostNegf_def, Ideal.negf_def, Ideal.mulf_def, Ideal.subf_def, Ideal.ofBits_def]

end Cert.Centroid

end
-- ==== Proof.LibDotT.lean ====
/-
  A matrix product with the transpose of the right factor, read at an index, on the extended reals.

  For a rows × contraction by columns × contraction product — the dimension numbers that contract the left operand's
  second axis with the right operand's SECOND axis, with no batch axis — the entry at (i, j) of the host's
  `dot_general`, and of a `tpu.matmul` accumulated into the zero splat, is the plain sum over the contraction
  coordinate k of l (i, k) · r (j, k): row i of the left operand against row j of the right one. The sum over the
  product's own contraction index is re-indexed through the bijection between a one-axis contraction index and its
  coordinate; the operand indices are computed from the dimension numbers: the left operand reads the result's first
  coordinate on its first axis, the right operand reads the result's second coordinate on its first axis, and both
  read the contraction coordinate on their second axis. Nothing here needs finiteness: only that the sum is re-indexed.
-/
import Idealize.ShloMosaic.Lib.ValueIdx
import Idealize.ShloMosaic.PureOps.Ideal.Laws

noncomputable section

namespace Cert.LibDotT

open Idealize.ShloMosaic Idealize.ShloMosaic.ValueIdx

variable {M K N : Nat}

/-- The contraction of row `y 0` of `l` with row `y 1` of `r`: the sum over the product's contraction index is
    the sum over the one contracted coordinate. -/
theorem sum_transposed (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (l : (⟨2, ![M, K]⟩ : Shape).Idx → EReal) (r : (⟨2, ![N, K]⟩ : Shape).Idx → EReal) (y : (⟨2, ![M, N]⟩ : Shape).Idx) :
    ∑ q : d.contr.Idx, l (d.lhsIdx y q) * r (d.rhsIdx y q) = ∑ k : Fin K, l (ix2 (y 0) k) * r (ix2 (y 1) k) := by
  obtain ⟨lc, rc, ln, rn, lb, rb, wf⟩ := d
  dsimp only at hlc hrc hln hrn hlb hrb
  subst hlc hrc hln hrn hlb hrb
  rw [← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun k _ => ?_
  have hk := contrEquiv1_symm_val (⟨[1], [1], [0], [0], [], [], wf⟩ : DotDims ⟨2, ![M, K]⟩ ⟨2, ![N, K]⟩ ⟨2, ![M, N]⟩) K rfl rfl k
  have el : DotDims.lhsIdx (⟨[1], [1], [0], [0], [], [], wf⟩ : DotDims ⟨2, ![M, K]⟩ ⟨2, ![N, K]⟩ ⟨2, ![M, N]⟩) y
      ((contrEquiv1 (⟨[1], [1], [0], [0], [], [], wf⟩ : DotDims ⟨2, ![M, K]⟩ ⟨2, ![N, K]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [1], [0], [0], [], [], wf⟩ : DotDims ⟨2, ![M, K]⟩ ⟨2, ![N, K]⟩ ⟨2, ![M, N]⟩) y
      ((contrEquiv1 (⟨[1], [1], [0], [0], [], [], wf⟩ : DotDims ⟨2, ![M, K]⟩ ⟨2, ![N, K]⟩ ⟨2, ![M, N]⟩) K rfl rfl).symm k)
      = ix2 (y 1) k := funext fun a => Fin.ext (by
    match a with
    | ⟨0, _⟩ =>
      unfold DotDims.rhsIdx
      rw [dif_neg (by simp), dif_pos (by simp)]
      rfl
    | ⟨1, _⟩ => exact (DotDims.rhsIdx_val_of_single _ rfl y _).trans hk)
  rw [el, er]
  rfl

variable {φ₁ φ₂ : FTy}

/-- The host's `dot_general` of those dimension numbers, at an index: the sum over the contracted coordinate. -/
theorem dotGeneral_transposed_apply (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (sched : HostSchedule)
    (l : FVec Ideal ⟨2, ![M, K]⟩ φ₁) (r : FVec Ideal ⟨2, ![N, K]⟩ φ₂) (y : (⟨2, ![M, N]⟩ : Shape).Idx) :
    FloatOps.dotGeneral d prec sched l r y = ∑ k : Fin K, l (ix2 (y 0) k) * r (ix2 (y 1) k) := by
  rw [Ideal.dotGeneral_apply]
  exact sum_transposed d hlc hrc hln hrn hlb hrb l r y

/-- A `tpu.matmul` of those dimension numbers into the zero accumulator, at an index: the same sum. -/
theorem matmul_zero_transposed_apply (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision)
    (l : FVec Ideal ⟨2, ![M, K]⟩ φ₁) (r : FVec Ideal ⟨2, ![N, K]⟩ φ₂) (y : (⟨2, ![M, N]⟩ : Shape).Idx) :
    FloatOps.matmul d prec l r (constant ⟨2, ![M, N]⟩ .f32 0x00000000#32) y
      = ∑ k : Fin K, l (ix2 (y 0) k) * r (ix2 (y 1) k) := by
  rw [Ideal.matmul_constant_zero_apply]
  exact sum_transposed d hlc hrc hln hrn hlb hrb l r y

end Cert.LibDotT

end
-- ==== Proof.LibColumn.lean ====
/-
  A column of per-row values laid beside a matrix, read at an index.

  A reduction over a matrix's second axis with the axis kept ("keepdims") leaves one value per row, stored as a
  vector of length a, re-cast as an a × 1 column, and then broadcast across the b columns of the matrix it is
  combined with.  At entry (p, c) each of these re-layings reads the one value of row p: the cast keeps the row-major
  position, and the broadcast reads a unit axis at coordinate 0 whatever the column.
-/
import Idealize.ShloMosaic.Lib.Pipeline.Value
import Idealize.ShloMosaic.Lib.ValueIdx

namespace Cert.LibColumn

open Idealize.ShloMosaic Idealize.ShloMosaic.ValueIdx

variable {α : Type}

/-- A vector of length `a` cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to itself is itself. -/
theorem shapeCast_a1_a1_apply {a : ℕ} (x : (⟨2, ![a, 1]⟩ : Shape).Idx → α) (h : (⟨2, ![a, 1]⟩ : Shape).ShapeCasts ⟨2, ![a, 1]⟩)
    (j : (⟨2, ![a, 1]⟩ : Shape).Idx) : shapeCast ⟨2, ![a, 1]⟩ x h j = x j := by
  rw [shapeCast_self]

/-- An `a × 1` column broadcast across `b` columns reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibColumn
-- ==== Proof.Payload.lean ====
/-
  The kernel body's stored value, read at an index.

  On a block of 512 batch rows x0, the centroids x1, the scale row x2 and the centroids' squared-norm row x3, the body
  stores, at (p, q):  0 - x2(0, q) · ( (Σ_k x0(p, k)² + x3(0, q)) - 2 · Σ_k x0(p, k) · x1(q, k) ).
  The row sum of squares is a reduction over the second axis, kept as a column and broadcast across the columns; the two
  row vectors are broadcast across the rows; the matrix product contracts the second axis of both operands (batch row p
  against centroid row q) into a zero accumulator; the narrowing of its operands is the identity on exact values.
-/
import proofs.«153817_j55843164783482_2_alg».proof.Proof.Gen.KernelIdeal.Skeleton
import proofs.«153817_j55843164783482_2_alg».proof.Proof.LibDotT
import proofs.«153817_j55843164783482_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.Centroid

open Idealize.ShloMosaic Idealize.ShloMosaic.ValueIdx
open Cert.KernelIdeal Cert.KernelIdeal.Gen

/-- The sum of a row's squares: the reduction over the second axis at row `p`. -/
theorem rowsq_apply (x : FVec Ideal S512x512 .f32) (p : Fin 512) :
    multiReduction .add [1] S512 (mulf x x) 0x00000000#32 Facts₀.reduces_S512x512_S512 (.inl rfl) rfl (ix1 p)
      = ∑ k : Fin 512, x (ix2 p k) * x (ix2 p k) := by
  refine (Ideal.multiReduction_add_single (mulf x x) 0x00000000#32 Facts₀.reduces_S512x512_S512 (.inl rfl) rfl (ix1 p)).trans ?_
  show ∑ k : Fin 512, (mulf x x) (reduces_S512x512_S512.lift (ix1 p) k) = ∑ k : Fin 512, x (ix2 p k) * x (ix2 p k)
  refine Finset.sum_congr rfl fun k _ => ?_
  have e : Facts₀.reduces_S512x512_S512.lift (ix1 p) k = ix2 p k :=
    funext fun a => Fin.ext (by match a with | ⟨0, _⟩ => rfl | ⟨1, _⟩ => rfl)
  rw [e]; rfl

/-- The product of the batch block with the transposed centroids at (p, q): row p against row q. -/
theorem rowdot_apply (x0 x1 : FVec Ideal S512x512 .f32) (p q : Fin 512) :
    matmul dot_S512x512_S512x512_S512x512_1_1_0_0_n_n none (truncf .bf16 x0 Facts₀.bitsLt_bf16_f32) (truncf .bf16 x1 Facts₀.bitsLt_bf16_f32)
        (constant S512x512 .f32 0x00000000#32) (ix2 p q)
      = ∑ k : Fin 512, x0 (ix2 p k) * x1 (ix2 q k) :=
  (LibDotT.matmul_zero_transposed_apply dot_S512x512_S512x512_S512x512_1_1_0_0_n_n rfl rfl rfl rfl rfl rfl none
    (truncf .bf16 x0 Facts₀.bitsLt_bf16_f32) (truncf .bf16 x1 Facts₀.bitsLt_bf16_f32) (ix2 p q)).trans rfl

/-- The stored value at (p, q). -/
theorem payload_apply (x0 x1 : FVec Ideal S512x512 .f32) (x2 x3 : FVec Ideal S1x512 .f32) (p q : Fin 512) :
    k0_pay1 (F := Ideal) x0 x1 x2 x3 (ix2 p q)
      = Ideal.ofBits .f32 0x00000000#32
        - x2 (ix2 (0 : Fin 1) q) * ((∑ k : Fin 512, x0 (ix2 p k) * x0 (ix2 p k) + x3 (ix2 (0 : Fin 1) q))
            - Ideal.ofBits .f32 0x40000000#32 * ∑ k : Fin 512, x0 (ix2 p k) * x1 (ix2 q k)) := by
  unfold k0_pay1
  dsimp only
  simp only [subf_apply, mulf_apply, addf_apply, broadcast_apply]
  rw [broadcastTo_1b_ab_apply, broadcastTo_1b_ab_apply, shapeCast_self, shapeCast_self,
    LibColumn.broadcastTo_a1_ab_apply, LibColumn.shapeCast_a_a1_apply, rowsq_apply, rowdot_apply]
  rfl

end Cert.Centroid

end
-- ==== Proof.HostPrefix.lean ====
/-
  What the region finds in the two row buffers the host prepares.

  Before the region the host lays the scale out as a 1 × 512 row, and computes each centroid's squared norm — the
  centroids squared entry by entry, summed over the second axis from zero — laid out as a 1 × 512 row as well.  At
  column q the first row holds g(q) and the second holds 0 + Σ_k W(q, k)·W(q, k).
-/
import proofs.«153817_j55843164783482_2_alg».proof.Proof.Gen.KernelIdeal.Frame
import Idealize.ShloMosaic.Lib.ValueIdx
import Idealize.ShloMosaic.Lib.ValueLayout
import Idealize.ShloMosaic.PureOps.Ideal.Laws
import Idealize.ShloMosaic.Lib.StableHlo.Run

noncomputable section

namespace Cert.Centroid

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ)

/-- The three argument arrays on core `c`, as functions of an index into the extended reals. -/
abbrev argD (c : Dev nD) : S1024x512.Idx → EReal := m ((c : Thread nD τ).loc main_arg0)
abbrev argW (c : Dev nD) : S512x512.Idx → EReal := m ((c : Thread nD τ).loc main_arg1)
abbrev argG (c : Dev nD) : S512.Idx → EReal := m ((c : Thread nD τ).loc main_arg2)

/-- The scale row at column `q` is the scale's entry `q`. -/
theorem scale_row_apply (c : Dev nD) (q : Fin 512) :
    (V m c main_v0 : S1x512.Idx → EReal) (ix2 (0 : Fin 1) q)
      = argG m c (ix1 q) := by
  have e : (V m c main_v0 : S1x512.Idx → EReal)
      = shapeCast S1x512 (argG m c) Facts₀.shapeCasts_S512_S1x512 := by
    dsimp only [Gen.V, Gen.hostOps0]; after_results; rfl
  rw [e]
  exact shapeCast_a_1a_apply _ _ _ _

/-- The squared-norm row at column `q` is zero plus the sum of the squares of centroid row `q`. -/
theorem norm_row_apply (c : Dev nD) (q : Fin 512) :
    (V m c main_v3 : S1x512.Idx → EReal) (ix2 (0 : Fin 1) q)
      = Ideal.ofBits .f32 0x00000000#32
        + ∑ k : Fin 512, argW m c (ix2 q k) * argW m c (ix2 q k) := by
  have e : (V m c main_v3 : S1x512.Idx → EReal)
      = shapeCast S1x512 (Host.reduceAdd (F := Ideal)
          (mulf (argW m c : FVec Ideal S512x512 .f32) (argW m c))
          (constant (F := Ideal) S_ .f32 0x00000000#32) Facts₀.reducesTo_S512x512_S512_d1 Facts₀.h_S_)
          Facts₀.shapeCasts_S512_S1x512 := by
    dsimp only [Gen.V, Gen.hostOps0]; after_results; rfl
  rw [e]
  refine (shapeCast_a_1a_apply _ _ _ _).trans ?_
  generalize argW m c = W
  simp only [Host.reduceAdd, Ideal.hostReduceAdd_def]
  rw [Ideal.hostReduceAdd_single Facts₀.reducesTo_S512x512_S512_d1 (by decide)]
  refine congrArg₂ (· + ·) rfl (Finset.sum_congr rfl fun k _ => ?_)
  exact congrArg (fun j => W j * W j) (funext fun a => Fin.ext (by match a with | ⟨0, _⟩ => rfl | ⟨1, _⟩ => rfl))

end Cert.Centroid

end
-- ==== Proof.Blocks.lean ====
/-
  From the blocks to the array.

  The grid has two points; point t stages batch rows 512·t … 512·t + 511 (all 512 features), the whole of the centroids,
  of the scale row and of the squared-norm row, and writes back rows 512·t … 512·t + 511 of the result.  So what point t
  writes back is block t of the kernel's array `kerOut` of the three arguments, the two blocks cover the result, and the
  result array ends holding `kerOut`.
-/
import proofs.«153817_j55843164783482_2_alg».proof.Proof.Gen.KernelIdeal.Value
import proofs.«153817_j55843164783482_2_alg».proof.Proof.Spec
import proofs.«153817_j55843164783482_2_alg».proof.Proof.Payload
import proofs.«153817_j55843164783482_2_alg».proof.Proof.HostPrefix
import Idealize.ShloMosaic.Lib.Pipeline.Value

noncomputable section

namespace Cert.Centroid

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

theorem offsets_zero : (![0, 0] : Fin 2 → Nat) = fun _ => 0 := funext fun a => by fin_cases a <;> rfl

/-- The printed index maps over the two grid points: the batch window and the result window sit at block row `t`, every
    other window at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 2 := lt_of_lt_of_eq t.isLt N_0

theorem row_lt {t p : ℕ} (ht : t < 2) (hp : p < 512) : t * 512 + p < 1024 := by omega

/-! ## One point's stored value, over any blocks with the stated contents -/

/-- If the four blocks hold rows 512·t … of `D`, the whole of `W`, the scale as a row and the squared norms as a row,
    the stored value at (p, q) is the kernel's entry (512·t + p, q). -/
theorem point_value (D : (⟨2, ![1024, 512]⟩ : Shape).Idx → EReal) (W : (⟨2, ![512, 512]⟩ : Shape).Idx → EReal)
    (g : (⟨1, ![512]⟩ : Shape).Idx → EReal)
    (x0 x1 : FVec Ideal S512x512 .f32) (x2 x3 : FVec Ideal S1x512 .f32) (t : ℕ) (ht : t < 2)
    (h0 : ∀ p k : Fin 512, x0 (ix2 p k) = D (ix2 (⟨t * 512 + p.val, row_lt ht p.isLt⟩ : Fin 1024) k))
    (h1 : ∀ q k : Fin 512, x1 (ix2 q k) = W (ix2 q k))
    (h2 : ∀ q : Fin 512, x2 (ix2 (0 : Fin 1) q) = g (ix1 q))
    (h3 : ∀ q : Fin 512, x3 (ix2 (0 : Fin 1) q)
      = Ideal.ofBits .f32 0x00000000#32 + ∑ k : Fin 512, W (ix2 q k) * W (ix2 q k))
    (p q : Fin 512) :
    k0_pay1 (F := Ideal) x0 x1 x2 x3 (ix2 p q) = kerEntry D W g ⟨t * 512 + p.val, row_lt ht p.isLt⟩ q := by
  rw [payload_apply]
  unfold kerEntry
  simp only [h0, h1, h2, h3]

/-! ## The blocks at a point -/

/-- The batch window's block at point `t` holds rows 512·t … 512·t + 511 of the batch. -/
theorem batch_block (c : Dev nD) (t : Fin cfg0.N) (p k : Fin 512) :
    (iblk m c 0 t : FVec Ideal S512x512 .f32) (ix2 p k)
      = argD m c (ix2 (⟨t.val * 512 + p.val, row_lt (point_lt t) p.isLt⟩ : Fin 1024) k) := by
  have hi := idx_facts t
  unfold iblk
  rw [View.read_apply]
  show V m c main_arg0 _ = _
  rw [V_main_arg0]
  refine congrArg (argD m c) (funext fun a => Fin.ext ?_)
  match a with
  | ⟨0, _⟩ => show win0_0.index t (0 : Fin 2) * 512 + 1 * p.val = t.val * 512 + p.val; rw [hi.1]; omega
  | ⟨1, _⟩ => show win0_0.index t (1 : Fin 2) * 512 + 1 * k.val = k.val; rw [hi.2.1]; omega

/-- The centroids' window holds the whole of the centroids at every point. -/
theorem centroid_block (c : Dev nD) (t : Fin cfg0.N) (q k : Fin 512) :
    (iblk m c 1 t : FVec Ideal S512x512 .f32) (ix2 q k) = argW m c (ix2 q k) := by
  have hi := idx_facts t
  unfold iblk
  rw [View.read_apply]
  show V m c main_arg1 _ = _
  rw [V_main_arg1]
  refine congrArg (argW m c) (funext fun a => Fin.ext ?_)
  match a with
  | ⟨0, _⟩ => show win0_1.index t (0 : Fin 2) * 512 + 1 * q.val = q.val; rw [hi.2.2.1]; omega
  | ⟨1, _⟩ => show win0_1.index t (1 : Fin 2) * 512 + 1 * k.val = k.val; rw [hi.2.2.2.1]; omega

/-- The scale row's window holds the scale at every point. -/
theorem scale_block (c : Dev nD) (t : Fin cfg0.N) (q : Fin 512) :
    (iblk m c 2 t : FVec Ideal S1x512 .f32) (ix2 (0 : Fin 1) q) = argG m c (ix1 q) := by
  have hi := idx_facts t
  unfold iblk
  rw [View.read_apply]
  show (V m c main_v0 : S1x512.Idx → EReal) _ = _
  refine (congrArg (V m c main_v0 : S1x512.Idx → EReal) (funext fun a => Fin.ext ?_)).trans (scale_row_apply m c q)
  match a with
  | ⟨0, _⟩ => show win0_2.index t (0 : Fin 2) * 1 + 1 * 0 = 0; rw [hi.2.2.2.2.1]
  | ⟨1, _⟩ => show win0_2.index t (1 : Fin 2) * 512 + 1 * q.val = q.val; rw [hi.2.2.2.2.2.1]; omega

/-- The squared-norm row's window holds the centroids' squared norms at every point. -/
theorem norm_block (c : Dev nD) (t : Fin cfg0.N) (q : Fin 512) :
    (iblk m c 3 t : FVec Ideal S1x512 .f32) (ix2 (0 : Fin 1) q)
      = Ideal.ofBits .f32 0x00000000#32 + ∑ k : Fin 512, argW m c (ix2 q k) * argW m c (ix2 q k) := by
  have hi := idx_facts t
  unfold iblk
  rw [View.read_apply]
  show (V m c main_v3 : S1x512.Idx → EReal) _ = _
  refine (congrArg (V m c main_v3 : S1x512.Idx → EReal) (funext fun a => Fin.ext ?_)).trans (norm_row_apply m c q)
  match a with
  | ⟨0, _⟩ => show win0_3.index t (0 : Fin 2) * 1 + 1 * 0 = 0; rw [hi.2.2.2.2.2.2.1]
  | ⟨1, _⟩ => show win0_3.index t (1 : Fin 2) * 512 + 1 * q.val = q.val; rw [hi.2.2.2.2.2.2.2.1]; omega

/-! ## What a point writes back, the cover, the array -/

/-- What point `t` writes back is block `t` of the kernel's array of the three arguments. -/
theorem flushed_eq (c : Dev nD) (t : Fin cfg0.N) :
    (dats m 0 c).flushed 4 t
      = ((cfg0.win 4).blk t).view.read (Elt Ideal) (kerOut (argD m c) (argW m c) (argG m c)) := by
  rw [Cert.KernelIdeal.Value.flushed4]
  unfold out0_4
  rw [View.canon_unit_zero offsets_zero]
  simp only [View.ld_unit_zero (S := S512x512) offsets_zero, View.ld_unit_zero (S := S1x512) offsets_zero]
  have hi := idx_facts t
  show (k0_pay1 (F := Ideal) (iblk m c 0 t) (iblk m c 1 t) (iblk m c 2 t) (iblk m c 3 t) : S512x512.Idx → EReal)
    = fun j : S512x512.Idx => kerOut (argD m c) (argW m c) (argG m c) (((cfg0.win 4).blk t).view.emb j)
  funext j
  obtain ⟨p, q, rfl⟩ : ∃ (p q : Fin 512), j = ix2 p q := ⟨j 0, j 1, eq_ix2 j⟩
  refine (point_value (argD m c) (argW m c) (argG m c) (iblk m c 0 t) (iblk m c 1 t) (iblk m c 2 t) (iblk m c 3 t)
    t.val (point_lt t) (batch_block m c t) (centroid_block m c t) (scale_block m c t) (norm_block m c t) p q).trans ?_
  refine (kerOut_of_coords (argD m c) (argW m c) (argG m c) (((cfg0.win 4).blk t).view.emb (ix2 p q))
    ⟨t.val * 512 + p.val, row_lt (point_lt t) p.isLt⟩ q ?_ ?_).symm
  · show win0_4.index t (0 : Fin 2) * 512 + 1 * p.val = t.val * 512 + p.val
    rw [hi.2.2.2.2.2.2.2.2.1]; omega
  · show win0_4.index t (1 : Fin 2) * 512 + 1 * q.val = q.val
    rw [hi.2.2.2.2.2.2.2.2.2]; omega

/-- An index of the result is in point `t`'s block iff each coordinate is in the block's range on its axis. -/
theorem mem_blk (t : Fin cfg0.N) (i : S1024x512.Idx) :
    i ∈ ((cfg0.win 4).blk t).view.set ↔ ∀ a : Fin 2, win0_4.index t a * S512x512.size a ≤ (i a).val
      ∧ (i a).val < win0_4.index t a * S512x512.size a + S512x512.size a := by
  show i ∈ ((View.whole main_v4).slice (win0_4.rect t)).set ↔ _
  rw [View.set_slice_whole, Rect.mem_set_unit]
  exact Iff.rfl

/-- Every index of the result is in the block of the point that owns its row: row r belongs to point r / 512. -/
theorem covered (i : S1024x512.Idx) :
    ∃ t : Fin cfg0.N, (cfg0.win 4).flush t = true ∧ i ∈ ((cfg0.win 4).blk t).view.set := by
  have hi0 : (i 0).val < 1024 := (i 0).isLt
  have hi1 : (i 1).val < 512 := (i 1).isLt
  have hN : cfg0.N = 2 := N_0
  have hidx := idx_facts ⟨(i 0).val / 512, by rw [hN]; omega⟩
  refine ⟨⟨(i 0).val / 512, by rw [hN]; omega⟩, flush0_4 _, ?_⟩
  rw [mem_blk]
  intro a
  match a with
  | ⟨0, _⟩ =>
    show win0_4.index _ (0 : Fin 2) * 512 ≤ (i 0).val ∧ (i 0).val < win0_4.index _ (0 : Fin 2) * 512 + 512
    rw [hidx.2.2.2.2.2.2.2.2.1]
    show (i 0).val / 512 * 512 ≤ (i 0).val ∧ (i 0).val < (i 0).val / 512 * 512 + 512
    omega
  | ⟨1, _⟩ =>
    show win0_4.index _ (1 : Fin 2) * 512 ≤ (i 1).val ∧ (i 1).val < win0_4.index _ (1 : Fin 2) * 512 + 512
    rw [hidx.2.2.2.2.2.2.2.2.2]
    omega

/-- The result array after the run is the kernel's array of the three arguments. -/
theorem final (c : Dev nD) : (dats m 0 c).arrAt 4 cfg0.N = kerOut (argD m c) (argW m c) (argG m c) :=
  (dats m 0 c).arrAt_eq_of_cover 4 (kerOut (argD m c) (argW m c) (argG m c)) (fun t _ => flushed_eq m c t) covered

/-- The kernel's run, read: the result at the kernel's array of the arguments, the arguments unchanged. -/
theorem kernel_run : θ_run defs (onTc (τ := τ) (main (F := Ideal))) ⟨m, fun _ => 0, ρ⟩ fun r => ∀ c : Dev nD,
      r.2.mem ((c : Thread nD τ).loc main_v4) = kerOut (argD m c) (argW m c) (argG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.Centroid

end
-- ==== Proof.Finite.lean ====
/-
  Finite inputs are real numbers.

  The precondition says, of each of the three arguments, that every entry is below +infinity in absolute value, the three
  answers joined by "and".  An extended real below +infinity in absolute value is a real number; so under the
  precondition every entry of the batch, of the centroids and of the scale is the coercion of a real.
-/
import proofs.«153817_j55843164783482_2_alg».proof.Proof.Gen.Pre_finite_inputs
import proofs.«153817_j55843164783482_2_alg».proof.Proof.LibRealOps
import Idealize.ShloMosaic.Lib.ReduceAll
import Idealize.ShloMosaic.Lib.ValueIdx
import Idealize.ShloMosaic.PureOps.Ideal.Laws

noncomputable section

namespace Cert.Centroid

open Idealize.ShloMosaic Cert.Pre_finite_inputs

instance : Subsingleton (⟨0, ![]⟩ : Shape).Idx := ⟨fun a b => funext fun d => d.elim0⟩

/-- Under the precondition every entry of the three arguments is a real number. -/
theorem real_of_pre (D : FVec Ideal S1024x512 .f32) (W : FVec Ideal S512x512 .f32) (g : FVec Ideal S512 .f32)
    (h : Cert.Pre_finite_inputs.fn (F := Ideal) D W g = fun _ => 1#1) :
    (∀ i, ∃ r : ℝ, D i = (r : EReal)) ∧ (∀ i, ∃ r : ℝ, W i = (r : EReal)) ∧ (∀ i, ∃ r : ℝ, g i = (r : EReal)) := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  refine ⟨fun i => ?_, fun i => ?_, fun i => ?_⟩
  · exact (RealOps.cmp_abs_lt_inf (D i)).1 (Host.reduce_andi_all _ _ _ _ _ h1 i)
  · exact (RealOps.cmp_abs_lt_inf (W i)).1 (Host.reduce_andi_all _ _ _ _ _ h2 i)
  · exact (RealOps.cmp_abs_lt_inf (g i)).1 (Host.reduce_andi_all _ _ _ _ _ h3 i)

end Cert.Centroid

end
-- ==== Proof.lean ====
/-
  Negated scaled squared distances to centroids: the kernel against its reference, on the extended reals.

  For a batch D (1024 × 512), centroids W (512 × 512) and a scale g (512), the reference computes
      out(b, o) = -( (Σ_i (D(b, i) - W(o, i))²) · g(o) ),
  and the kernel expands the square:
      out(b, o) = 0 - g(o) · ( (Σ_i D(b, i)² + Σ_i W(o, i)²) - 2 · Σ_i D(b, i)·W(o, i) ),
  the cross term being one matrix product of the batch with the transposed centroids, the centroids' squared norms a row
  the host prepares before the call, and the batch processed in two blocks of 512 rows.

  The expansion is the reals' law (a - b)² = a² + b² - 2ab summed over i; on the extended reals it needs every entry to be
  a real number, which is what the precondition (all inputs finite) provides.  So: the kernel's result array is read off
  its run block by block as one function of the three arguments; the reference's run is read operation by operation at an
  index; under the precondition the two functions agree entry by entry.  The kernel's idealization rewrote nothing, so
  it is the program's own text read on the extended reals.
-/
import proofs.«153817_j55843164783482_2_alg».proof.Defs
import proofs.«153817_j55843164783482_2_alg».proof.Proof.Gen.Kernel
import proofs.«153817_j55843164783482_2_alg».proof.Proof.Gen.Kernel.Skeleton
import proofs.«153817_j55843164783482_2_alg».proof.Proof.Gen.Kernel.Launch
import proofs.«153817_j55843164783482_2_alg».proof.Proof.Gen.Kernel.Points
import proofs.«153817_j55843164783482_2_alg».proof.Proof.Gen.Kernel.Frame
import proofs.«153817_j55843164783482_2_alg».proof.Proof.Gen.KernelIdeal
import proofs.«153817_j55843164783482_2_alg».proof.Proof.Gen.KernelIdeal.Skeleton
import proofs.«153817_j55843164783482_2_alg».proof.Proof.Gen.KernelIdeal.Launch
import proofs.«153817_j55843164783482_2_alg».proof.Proof.Gen.KernelIdeal.Points
import proofs.«153817_j55843164783482_2_alg».proof.Proof.Gen.KernelIdeal.Frame
import proofs.«153817_j55843164783482_2_alg».proof.Proof.Gen.ReferenceIdeal
import proofs.«153817_j55843164783482_2_alg».proof.Proof.Gen.KernelIdeal.Value
import proofs.«153817_j55843164783482_2_alg».proof.Proof.Gen.ReferenceIdeal.Run
import proofs.«153817_j55843164783482_2_alg».proof.Proof.Gen.ReferenceIdeal.Read
import proofs.«153817_j55843164783482_2_alg».proof.Proof.Gen.Pre_finite_inputs
import proofs.«153817_j55843164783482_2_alg».proof.Proof.Spec
import proofs.«153817_j55843164783482_2_alg».proof.Proof.RefRead
import proofs.«153817_j55843164783482_2_alg».proof.Proof.Blocks
import proofs.«153817_j55843164783482_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments as they were: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the three arguments, all of them finite, both programs end with the reference's array
    of the arguments: the kernel's array is the expanded square, equal to it where every entry is a real number. -/
theorem algebraic : Cert.algebraic_KernelIdeal_ReferenceIdeal := by
  intro m ρ m' ρ' hpre hagree
  refine ⟨fun c => Cert.Centroid.refOut (Cert.Centroid.argD m c) (Cert.Centroid.argW m c) (Cert.Centroid.argG m c), ?_, ?_⟩
  · refine (θ_run Cert.KernelIdeal.defs _ _).mono (fun r h c => ⟨(h c).1.trans ?_, (h c).2⟩)
      (Cert.Centroid.kernel_run m ρ)
    obtain ⟨hD, hW, hg⟩ := Cert.Centroid.real_of_pre _ _ _ (hpre c)
    exact Cert.Centroid.kerOut_eq_refOut _ _ _ hD hW hg
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v11_eq, Cert.Centroid.reference_eq, (hagree c).1, (hagree c).2.1,
      (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
